-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S128x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S512x8192_S512x8192_0_0 : ∀ a, (![0, 0] : Fin 2 → Nat) a + S512x8192.size a ≤ S512x8192.size a
  h_S512x8192 : 0 < S512x8192.numel
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S512x8192_S512 : S512x8192.Reduces [1] S512
  shapeCasts_S512_S512x1 : S512.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S512x1_S512x128 : S512x1.Broadcasts S512x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x8192_S8192x128_S512x128_1_0_0_1_n_n_wf : DotDims.WF S512x8192 S8192x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Spec.lean ====
/-
  A graph layer that averages transformed neighbour features, as a function on the extended reals.

  For one node, with row `a` of the adjacency matrix (one weight per neighbour `j`), the neighbours' feature rows
  `x j`, one row `w` of the weight matrix and one bias entry `b`, the layer's output entry is

      max (Σ_j a_j · ((Σ_k x_jk · w_k) + b) / ((Σ_j a_j) + ε)) 0.

  The aggregation can be done before the projection: for real (finite) data

      Σ_j a_j · ((Σ_k x_jk · w_k) + b) = (Σ_k (Σ_j a_j · x_jk) · w_k) + (Σ_j a_j) · b,

  by distributivity, which holds on the reals and is transported to the extended reals through the coercion.
  On the extended reals themselves distributivity fails at the infinities, so the finiteness of the data is used.
-/
import Idealize.ShloMosaic.PureOps.Ideal.Laws
import Idealize.ShloMosaic.Lib.ValueIdx

noncomputable section

open scoped BigOperators

namespace Cert.Sage

open Idealize.ShloMosaic Idealize.ShloMosaic.ValueIdx

/-- A finite sum of reals, read as an extended real, is the sum of the terms read as extended reals. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Aggregating the projected features is projecting the aggregated features, on the reals. -/
theorem aggregate_real {J K : Type} [Fintype J] [Fintype K] (a : J → ℝ) (x : J → K → ℝ) (w : K → ℝ) (b : ℝ) :
    (∑ j, a j * ((∑ k, x j k * w k) + b)) = (∑ k, (∑ j, a j * x j k) * w k) + (∑ j, a j) * b := by
  simp only [mul_add, Finset.sum_add_distrib, Finset.mul_sum, Finset.sum_mul]
  rw [Finset.sum_comm]
  congr 1
  refine Finset.sum_congr rfl fun k _ => Finset.sum_congr rfl fun j _ => ?_
  ring

/-- The same identity for real data read on the extended reals. -/
theorem aggregate_coe {J K : Type} [Fintype J] [Fintype K] (a : J → ℝ) (x : J → K → ℝ) (w : K → ℝ) (b : ℝ) :
    (∑ j, (a j : EReal) * ((∑ k, (x j k : EReal) * (w k : EReal)) + (b : EReal)))
      = (∑ k, (∑ j, (a j : EReal) * (x j k : EReal)) * (w k : EReal)) + (∑ j, (a j : EReal)) * (b : EReal) := by
  simp only [← EReal.coe_mul, ← coe_sum, ← EReal.coe_add]
  exact congrArg _ (aggregate_real a x w b)

/-- The small constant added to a node's degree before dividing (the f32 nearest to one millionth). -/
abbrev eps : EReal := Ideal.ofBits .f32 0x358637BD#32

/-- One output entry, aggregating the projected and biased neighbour features. -/
def projectThenAggregate {J K : Type} [Fintype J] [Fintype K] (a : J → EReal) (x : J → K → EReal) (w : K → EReal)
    (b : EReal) : EReal :=
  max (Ideal.div (∑ j, a j * ((∑ k, x j k * w k) + b)) ((∑ j, a j) + eps)) 0

/-- One output entry, projecting the aggregated neighbour features and adding the degree times the bias. -/
def aggregateThenProject {J K : Type} [Fintype J] [Fintype K] (a : J → EReal) (x : J → K → EReal) (w : K → EReal)
    (b : EReal) : EReal :=
  max (Ideal.div ((∑ k, (∑ j, a j * x j k) * w k) + (∑ j, a j) * b) ((∑ j, a j) + eps)) 0

/-- For finite data the two orders give the same entry. -/
theorem aggregateThenProject_eq {J K : Type} [Fintype J] [Fintype K] (a : J → EReal) (x : J → K → EReal)
    (w : K → EReal) (b : EReal) (ha : ∀ j, ∃ r : ℝ, a j = r) (hx : ∀ j k, ∃ r : ℝ, x j k = r)
    (hw : ∀ k, ∃ r : ℝ, w k = r) (hb : ∃ r : ℝ, b = r) :
    aggregateThenProject a x w b = projectThenAggregate a x w b := by
  choose a' ha' using ha
  choose x' hx' using hx
  choose w' hw' using hw
  obtain ⟨b', rfl⟩ := hb
  obtain rfl : a = fun j => (a' j : EReal) := funext ha'
  obtain rfl : x = fun j k => (x' j k : EReal) := funext fun j => funext fun k => hx' j k
  obtain rfl : w = fun k => (w' k : EReal) := funext hw'
  unfold aggregateThenProject projectThenAggregate
  rw [aggregate_coe a' x' w' b']

/-- The layer on whole arrays: features `x` (8192 nodes × 128), adjacency `adj` (8192 × 8192), weights `W`
    (128 outputs × 128 inputs), bias `b` (128); the entry at node `r`, output feature `c`. -/
def layer (x : (⟨2, ![8192, 128]⟩ : Shape).Idx → EReal) (adj : (⟨2, ![8192, 8192]⟩ : Shape).Idx → EReal)
    (W : (⟨2, ![128, 128]⟩ : Shape).Idx → EReal) (b : (⟨1, ![128]⟩ : Shape).Idx → EReal) :
    (⟨2, ![8192, 128]⟩ : Shape).Idx → EReal := fun i =>
  projectThenAggregate (fun j : Fin 8192 => adj (ix2 (i 0) j)) (fun (j : Fin 8192) (k : Fin 128) => x (ix2 j k))
    (fun k : Fin 128 => W (ix2 (i 1) k)) (b (ix1 (i 1)))

end Cert.Sage

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.KernelPayload.lean ====
/-
  What the kernel body stores, read at one entry.

  The body holds a block of 512 rows of the adjacency matrix, the whole feature matrix, the weight matrix and the
  bias as a one-row matrix. At local row `p` and output feature `c` it computes the aggregated features
  Σ_j a(p,j) · x(j,k), projects them on row `c` of the weights (the weight matrix is transposed first, so entry
  (k,c) of the right factor is W(c,k)), adds the row sum of `a` times the bias entry, divides by the row sum plus ε
  and clamps at zero: the aggregate-then-project form of `Spec.lean`.
-/
import proofs.«128669_g43241730737058_cont_9to1c4_547_7_alg».proof.Proof.Gen.KernelIdeal.Skeleton
import proofs.«128669_g43241730737058_cont_9to1c4_547_7_alg».proof.Proof.Spec
import proofs.«128669_g43241730737058_cont_9to1c4_547_7_alg».proof.Proof.LibMatmulNN
import proofs.«128669_g43241730737058_cont_9to1c4_547_7_alg».proof.Proof.LibColumnForms
import Idealize.ShloMosaic.Lib.ValueLayout
import Idealize.ShloMosaic.Lib.Pipeline.Value

noncomputable section

open scoped BigOperators

namespace Cert.Sage.Kernel

open Idealize.ShloMosaic Idealize.ShloMosaic.ValueIdx Cert.KernelIdeal Cert.KernelIdeal.Gen

/-- The stored block at local row `p`, output feature `c`. -/
theorem payload_at (v0 : FVec Ideal S512x8192 .f32) (v1 : FVec Ideal S8192x128 .f32) (v3 : FVec Ideal S128x128 .f32)
    (v8 : FVec Ideal S1x128 .f32) (p : Fin 512) (c : Fin 128) :
    k0_pay1 (F := Ideal) v0 v1 v3 v8 (ix2 p c)
      = Cert.Sage.aggregateThenProject (fun j : Fin 8192 => v0 (ix2 p j))
          (fun (j : Fin 8192) (k : Fin 128) => v1 (ix2 j k)) (fun k : Fin 128 => v3 (ix2 c k)) (v8 (ix2 (0 : Fin 1) c)) := by
  unfold k0_pay1
  simp only [maximumf_apply, divf_apply, addf_apply, mulf_apply, broadcast_apply]
  rw [Cert.Lib.ColumnForms.broadcastTo_a1_ab_apply, Cert.Lib.ColumnForms.broadcastTo_a1_ab_apply,
    broadcastTo_1b_ab_apply, shapeCast_self, addf_apply, broadcast_apply,
    Cert.Lib.ColumnForms.shapeCast_a_a1_apply,
    Cert.LibMatmulNN.matmul_zero_apply' dot_S512x128_S128x128_S512x128_1_0_0_1_n_n rfl rfl rfl rfl rfl rfl]
  have hdeg : multiReduction (F := Ideal) .add [1] S512 v0 0x00000000#32 reduces_S512x8192_S512 (.inl rfl) rfl (ix1 p)
      = ∑ j : Fin 8192, v0 (ix2 p j) := Cert.Lib.ColumnForms.rowSum_apply v0 reduces_S512x8192_S512 (.inl rfl) rfl p
  rw [hdeg]
  have htr : ∀ k : Fin 128, transpose S128x128 [1, 0] v3 transposes_S128x128_p1_0_S128x128 (ix2 k c) = v3 (ix2 c k) :=
    fun k => transpose_ix2_apply v3 transposes_S128x128_p1_0_S128x128 k c
  simp only [Cert.LibMatmulNN.matmul_zero_apply' dot_S512x8192_S8192x128_S512x128_1_0_0_1_n_n rfl rfl rfl rfl rfl rfl,
    htr, Ideal.ofBits_def, Ideal.ofBits_zero_f32]
  rfl

end Cert.Sage.Kernel

end
-- ==== Proof.KernelValue.lean ====
/-
  The kernel's result array as one function of the arrays the region finds.

  The grid has 16 points. At point `t` the adjacency window holds rows 512·t … 512·t + 511 of the adjacency matrix
  (all 8192 columns), the feature, weight and bias windows hold their whole arrays (block index 0 at every point),
  and the output window is rows 512·t … 512·t + 511 of the result. So what point `t` writes back is block `t` of
  the whole-array function `kernelLayer`: at node `r`, output feature `c`, the aggregate-then-project entry of
  row `r` of the adjacency matrix. The 16 blocks tile the 8192 rows, so the result array ends holding
  `kernelLayer` of the arguments, the bias read through its reshape to one row.
-/
import proofs.«128669_g43241730737058_cont_9to1c4_547_7_alg».proof.Proof.Gen.KernelIdeal.Value
import proofs.«128669_g43241730737058_cont_9to1c4_547_7_alg».proof.Proof.KernelPayload
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.Sage.KernelValue

open Cert.KernelIdeal Cert.KernelIdeal.Gen Cert.KernelIdeal.Value

/-- The kernel's layer on whole arrays, the bias given as a one-row matrix: the entry at node `i 0`, feature `i 1`. -/
def kernelLayer (x : FVec Ideal S8192x128 .f32) (adj : FVec Ideal S8192x8192 .f32) (W : FVec Ideal S128x128 .f32)
    (b2 : FVec Ideal S1x128 .f32) : FVec Ideal S8192x128 .f32 := fun i =>
  Cert.Sage.aggregateThenProject (fun j : Fin 8192 => adj (ix2 (i 0) j)) (fun (j : Fin 8192) (k : Fin 128) => x (ix2 j k))
    (fun k : Fin 128 => W (ix2 (i 1) k)) (b2 (ix2 (0 : Fin 1) (i 1)))

/-- A stored block entry from the loaded blocks: if the adjacency block's row `p` is row `r` of the adjacency
    matrix and the other blocks are the whole arrays, the entry is the layer's at `(r, q)`. -/
theorem entry_of_blocks (X : FVec Ideal S8192x128 .f32) (A : FVec Ideal S8192x8192 .f32) (Wt : FVec Ideal S128x128 .f32)
    (B2 : FVec Ideal S1x128 .f32) (x0 : FVec Ideal S512x8192 .f32) (x1 : FVec Ideal S8192x128 .f32)
    (x2 : FVec Ideal S128x128 .f32) (x3 : FVec Ideal S1x128 .f32) (p : Fin 512) (q : Fin 128) (r : Fin 8192)
    (h0 : ∀ j : Fin 8192, x0 (ix2 p j) = A (ix2 r j)) (h1 : x1 = X) (h2 : x2 = Wt) (h3 : x3 = B2) :
    k0_pay1 (F := Ideal) x0 x1 x2 x3 (ix2 p q) = kernelLayer X A Wt B2 (ix2 r q) := by
  subst h1 h2 h3
  rw [Cert.Sage.Kernel.payload_at]
  have hrow : (fun j : Fin 8192 => x0 (ix2 p j)) = fun j : Fin 8192 => A (ix2 r j) := funext h0
  rw [hrow]
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 grid points: the adjacency and output windows are at block row `t`,
    every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the adjacency block at point `t` is row `512·t + p` of the adjacency matrix. -/
theorem adj_block (c : Dev nD) (t : Fin cfg0.N) (p : Fin 512) (j : Fin 8192) (r : Fin 8192)
    (hr : r.val = t.val * 512 + p.val) :
    (iblk m c 0 t : FVec Ideal S512x8192 .f32) (ix2 p j) = (V m c main_arg1 : FVec Ideal S8192x8192 .f32) (ix2 r j) := by
  obtain ⟨e0, e1, -⟩ := idx_facts t
  unfold iblk
  rw [View.read_apply]
  show V m c main_arg1 _ = V m c main_arg1 _
  refine congrArg (V m c main_arg1) ?_
  funext a
  apply Fin.ext
  match a with
  | ⟨0, _⟩ => show win0_0.index t 0 * 512 + 1 * p.val = r.val; omega
  | ⟨1, _⟩ => show win0_0.index t 1 * 8192 + 1 * j.val = j.val; omega

/-- The feature window's block is the whole feature matrix at every point. -/
theorem x_block (c : Dev nD) (t : Fin cfg0.N) :
    (iblk m c 1 t : FVec Ideal S8192x128 .f32) = (V m c main_arg0 : FVec Ideal S8192x128 .f32) := by
  obtain ⟨-, -, e0, e1, -⟩ := idx_facts t
  funext y
  unfold iblk
  rw [View.read_apply]
  show V m c main_arg0 _ = V m c main_arg0 y
  refine congrArg (V m c main_arg0) ?_
  funext a
  apply Fin.ext
  match a with
  | ⟨0, _⟩ => show win0_1.index t 0 * 8192 + 1 * (y 0).val = (y 0).val; omega
  | ⟨1, _⟩ => show win0_1.index t 1 * 128 + 1 * (y 1).val = (y 1).val; omega

/-- The weight window's block is the whole weight matrix at every point. -/
theorem w_block (c : Dev nD) (t : Fin cfg0.N) :
    (iblk m c 2 t : FVec Ideal S128x128 .f32) = (V m c main_arg2 : FVec Ideal S128x128 .f32) := by
  obtain ⟨-, -, -, -, e0, e1, -⟩ := idx_facts t
  funext y
  unfold iblk
  rw [View.read_apply]
  show V m c main_arg2 _ = V m c main_arg2 y
  refine congrArg (V m c main_arg2) ?_
  funext a
  apply Fin.ext
  match a with
  | ⟨0, _⟩ => show win0_2.index t 0 * 128 + 1 * (y 0).val = (y 0).val; omega
  | ⟨1, _⟩ => show win0_2.index t 1 * 128 + 1 * (y 1).val = (y 1).val; omega

/-- The bias window's block is the whole one-row bias matrix at every point. -/
theorem b_block (c : Dev nD) (t : Fin cfg0.N) :
    (iblk m c 3 t : FVec Ideal S1x128 .f32) = (V m c main_v0 : FVec Ideal S1x128 .f32) := by
  obtain ⟨-, -, -, -, -, -, e0, e1, -⟩ := idx_facts t
  funext y
  unfold iblk
  rw [View.read_apply]
  show V m c main_v0 _ = V m c main_v0 y
  refine congrArg (V m c main_v0) ?_
  funext a
  apply Fin.ext
  match a with
  | ⟨0, _⟩ => show win0_3.index t 0 * 1 + 1 * (y 0).val = (y 0).val; omega
  | ⟨1, _⟩ => show win0_3.index t 1 * 128 + 1 * (y 1).val = (y 1).val; omega

/-- What point `t` writes back is block `t` of `kernelLayer` of the arrays as the region finds them. -/
theorem flushed_eq (c : Dev nD) (t : Fin cfg0.N) :
    (dats m 0 c).flushed 4 t = ((cfg0.win 4).blk t).view.read (Elt Ideal)
      (kernelLayer (V m c main_arg0) (V m c main_arg1) (V m c main_arg2) (V m c main_v0)) := by
  rw [flushed4]
  unfold out0_4
  rw [View.canon_unit_zero hz]
  simp only [View.ld_unit_zero (S := S512x8192) hz, View.ld_unit_zero (S := S8192x128) hz,
    View.ld_unit_zero (S := S128x128) hz, View.ld_unit_zero (S := S1x128) hz]
  obtain ⟨-, -, -, -, -, -, -, -, e0, e1⟩ := idx_facts t
  have hN : cfg0.N = 16 := N_0
  funext y
  have hy0 : (y 0).val < 512 := (y 0).isLt
  have hy1 : (y 1).val < 128 := (y 1).isLt
  have ht : t.val < 16 := hN ▸ t.isLt
  let p : Fin 512 := ⟨(y 0).val, hy0⟩
  let q : Fin 128 := ⟨(y 1).val, hy1⟩
  let r : Fin 8192 := ⟨t.val * 512 + (y 0).val, by omega⟩
  have hy : y = ix2 p q := funext fun a => match a with | ⟨0, _⟩ => rfl | ⟨1, _⟩ => rfl
  have hemb : ((cfg0.win 4).blk t).view.emb y = ix2 r q := by
    funext a
    apply Fin.ext
    match a with
    | ⟨0, _⟩ => show win0_4.index t 0 * 512 + 1 * (y 0).val = t.val * 512 + (y 0).val; omega
    | ⟨1, _⟩ => show win0_4.index t 1 * 128 + 1 * (y 1).val = (y 1).val; omega
  show k0_pay1 (F := Ideal) (iblk m c 0 t) (iblk m c 1 t) (iblk m c 2 t) (iblk m c 3 t) y
    = kernelLayer (V m c main_arg0) (V m c main_arg1) (V m c main_arg2) (V m c main_v0) (((cfg0.win 4).blk t).view.emb y)
  rw [hemb, hy]
  exact entry_of_blocks (V m c main_arg0) (V m c main_arg1) (V m c main_arg2) (V m c main_v0)
    (iblk m c 0 t) (iblk m c 1 t) (iblk m c 2 t) (iblk m c 3 t) p q r
    (fun j => adj_block m c t p j r rfl) (x_block m c t) (w_block m c t) (b_block m c t)

/-- An index of the result array is in point `t`'s block iff each coordinate is in the block's range. -/
theorem mem_blk (t : Fin cfg0.N) (i : S8192x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v1).slice (win0_4.rect t)).set ↔ _
  rw [View.set_slice_whole, Rect.mem_set_unit]
  exact Iff.rfl

/-- Every index of the result array is in the block of the point its row falls in: row `r` in block `r / 512`. -/
theorem cover (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 16 := N_0
  have hlt : (i 0).val / 512 < cfg0.N := by rw [hN]; omega
  obtain ⟨-, -, -, -, -, -, -, -, e0, e1⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ 0 * 512 ≤ (i 0).val
      ∧ (i 0).val < win0_4.index ⟨(i 0).val / 512, hlt⟩ 0 * 512 + 512
    rw [e0]
    show (i 0).val / 512 * 512 ≤ (i 0).val ∧ (i 0).val < (i 0).val / 512 * 512 + 512
    omega
  | ⟨1, _⟩ =>
    show win0_4.index ⟨(i 0).val / 512, hlt⟩ 1 * 128 ≤ (i 1).val
      ∧ (i 1).val < win0_4.index ⟨(i 0).val / 512, hlt⟩ 1 * 128 + 128
    rw [e1]
    omega

/-- The result array after the run is `kernelLayer` of the arrays as the region finds them. -/
theorem final (c : Dev nD) : (dats m 0 c).arrAt 4 cfg0.N
    = kernelLayer (V m c main_arg0) (V m c main_arg1) (V m c main_arg2) (V m c main_v0) :=
  (dats m 0 c).arrAt_eq_of_cover 4 _ (fun t _ => flushed_eq m c t) cover

/-- The one-row bias matrix the region finds is the bias vector reshaped. -/
theorem bias_row (c : Dev nD) : (V m c main_v0 : FVec Ideal S1x128 .f32)
    = shapeCast S1x128 (m ((c : Thread nD τ).loc main_arg3) : FVec Ideal S128 .f32) shapeCasts_S128_S1x128 := by
  dsimp only [Gen.V, Gen.hostOps0]
  after_results
  rfl

end Cert.Sage.KernelValue

end
-- ==== Proof.RefSide.lean ====
/-
  The reference program's result, read entry by entry, is the layer of `Spec.lean`: at node `r` and output
  feature `c` it divides the aggregate Σ_j adj(r,j) · ((Σ_k x(j,k) · W(c,k)) + b(c)) by the degree Σ_j adj(r,j)
  plus ε and clamps the quotient at zero. Each stage of the program is read at explicit coordinates; the zero the
  degree sum starts from and the zero of the clamp are the extended real 0.
-/
import proofs.«128669_g43241730737058_cont_9to1c4_547_7_alg».proof.Proof.Gen.ReferenceIdeal.Read
import proofs.«128669_g43241730737058_cont_9to1c4_547_7_alg».proof.Proof.Spec

noncomputable section

open scoped BigOperators

namespace Cert.Sage.Ref

open Idealize.ShloMosaic Idealize.ShloMosaic.ValueIdx Cert.ReferenceIdeal Cert.ReferenceIdeal.Read

variable (x : FVec Ideal S8192x128 .f32) (adj : FVec Ideal S8192x8192 .f32) (W : FVec Ideal S128x128 .f32)
  (b : FVec Ideal S128 .f32)

/-! The program's index maps at explicit coordinates. -/

theorem lidx_v1 (j : Fin 8192) (c : Fin 128) (k : Fin 128) : lidx_main_v1 (ix2 j c) k = ix2 j k :=
  funext fun a => match a with | ⟨0, _⟩ => rfl | ⟨1, _⟩ => rfl
theorem ridx_v1 (j : Fin 8192) (c : Fin 128) (k : Fin 128) : idx_main_v0 (ridx_main_v1 (ix2 j c) k) = ix2 c k :=
  funext fun a => match a with | ⟨0, _⟩ => rfl | ⟨1, _⟩ => rfl
theorem idx_bias (j : Fin 8192) (c : Fin 128) : idx_main_v2 (idx_main_v3 (ix2 j c)) = ix1 c :=
  funext fun a => match a with | ⟨0, _⟩ => rfl
theorem lidx_v5 (r : Fin 8192) (c : Fin 128) (j : Fin 8192) : lidx_main_v5 (ix2 r c) j = ix2 r j :=
  funext fun a => match a with | ⟨0, _⟩ => rfl | ⟨1, _⟩ => rfl
theorem ridx_v5 (r : Fin 8192) (c : Fin 128) (j : Fin 8192) : ridx_main_v5 (ix2 r c) j = ix2 j c :=
  funext fun a => match a with | ⟨0, _⟩ => rfl | ⟨1, _⟩ => rfl
theorem idx_deg (r : Fin 8192) (c : Fin 128) (k : Fin 8192) :
    idx_main_v6 (idx_main_v7 (idx_main_v10 (ix2 r c))) k = ix2 r k :=
  funext fun a => match a with | ⟨0, _⟩ => rfl | ⟨1, _⟩ => rfl

/-- The projected and biased features of node `j`, output feature `c`: (Σ_k x(j,k) · W(c,k)) + b(c). -/
theorem projected_at (j : Fin 8192) (c : Fin 128) :
    val_main_v4 (F := Ideal) x W b (ix2 j c) = (∑ k : Fin 128, x (ix2 j k) * W (ix2 c k)) + b (ix1 c) := by
  rw [val_main_v4_apply, val_main_v1_apply, val_main_v3_apply, val_main_v2_apply]
  simp only [val_main_v0_apply, Ideal.addf_def, lidx_v1, ridx_v1, idx_bias]

/-- The aggregate of node `r`: Σ_j adj(r,j) · (projected features of j). -/
theorem aggregate_at (r : Fin 8192) (c : Fin 128) :
    val_main_v5 (F := Ideal) x adj W b (ix2 r c)
      = ∑ j : Fin 8192, adj (ix2 r j) * ((∑ k : Fin 128, x (ix2 j k) * W (ix2 c k)) + b (ix1 c)) := by
  rw [val_main_v5_apply]
  refine Finset.sum_congr rfl fun j _ => ?_
  rw [lidx_v5, ridx_v5, projected_at]

/-- The divisor of node `r`: its degree plus ε. -/
theorem divisor_at (r : Fin 8192) (c : Fin 128) :
    val_main_v10 (F := Ideal) adj (ix2 r c) = (∑ j : Fin 8192, adj (ix2 r j)) + Cert.Sage.eps := by
  rw [val_main_v10_apply, val_main_v9_apply, val_main_v7_apply, val_main_v6_apply, val_main_v8_apply,
    val_main_cst_0_apply, val_main_cst_apply]
  simp only [Ideal.addf_def, Ideal.ofBits_def, Ideal.ofBits_zero_f32, zero_add, idx_deg]

/-- The reference's result is the layer. -/
theorem result_eq : val_main_v12 (F := Ideal) x adj W b = Cert.Sage.layer x adj W b := by
  funext i
  obtain ⟨r, c, rfl⟩ : ∃ (r : Fin 8192) (c : Fin 128), i = ix2 r c := ⟨i 0, i 1, eq_ix2 i⟩
  rw [val_main_v12_apply, val_main_v11_apply, aggregate_at, divisor_at, val_main_call0_v0_apply,
    val_main_call0_cst_apply]
  simp only [Ideal.maximumf_def, Ideal.hostDivf_def, Ideal.ofBits_def, Ideal.ofBits_zero_f32]
  rfl

end Cert.Sage.Ref

end
-- ==== Proof.Finite.lean ====
/-
  Finite inputs are real numbers.

  The precondition says of each of the four input arrays that the absolute value of every entry is below +∞. On
  the extended reals |x| = max x (−x), so this excludes both infinities and every entry is (the coercion of) a real
  number.
-/
import proofs.«128669_g43241730737058_cont_9to1c4_547_7_alg».proof.Pre_finite_inputs
import Idealize.ShloMosaic.Lib.ReduceAll
import Idealize.ShloMosaic.Lib.ValueIdx
import Idealize.ShloMosaic.PureOps.Ideal.Laws

noncomputable section

namespace Cert.Sage.Finite

open Idealize.ShloMosaic Cert.Pre_finite_inputs

/-- The scalar shape has one index. -/
instance : Subsingleton S_.Idx := ⟨fun _ _ => funext fun d => d.elim0⟩

/-- An extended real whose absolute value compares below +∞ is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of every input array is a real number. -/
theorem entries_real [Facts] (x : FVec Ideal S8192x128 .f32) (adj : FVec Ideal S8192x8192 .f32)
    (W : FVec Ideal S128x128 .f32) (b : FVec Ideal S128 .f32)
    (h : fn (F := Ideal) x adj W b = fun _ => 1#1) :
    (∀ i, ∃ r : ℝ, x i = r) ∧ (∀ i, ∃ r : ℝ, adj i = r) ∧ (∀ i, ∃ r : ℝ, W i = r) ∧ (∀ i, ∃ r : ℝ, b i = r) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt_top _ (Host.reduce_andi_all _ _ _ _ _ h1 i),
    fun i => real_of_abs_lt_top _ (Host.reduce_andi_all _ _ _ _ _ h2 i),
    fun i => real_of_abs_lt_top _ (Host.reduce_andi_all _ _ _ _ _ h3 i),
    fun i => real_of_abs_lt_top _ (Host.reduce_andi_all _ _ _ _ _ h4 i)⟩

end Cert.Sage.Finite

end
-- ==== Proof.lean ====
/-
  A graph layer with a dense adjacency matrix: the kernel against its reference, on the extended reals.

  The reference computes, for node `r` and output feature `c`,

      max ((Σ_j adj(r,j) · ((Σ_k x(j,k) · W(c,k)) + b(c))) / ((Σ_j adj(r,j)) + ε)) 0,

  projecting and biasing every node's features first and aggregating afterwards. The kernel streams the adjacency
  matrix in 16 blocks of 512 rows and, for each row, aggregates first and projects afterwards,

      max (((Σ_k (Σ_j adj(r,j) · x(j,k)) · W(c,k)) + (Σ_j adj(r,j)) · b(c)) / ((Σ_j adj(r,j)) + ε)) 0.

  The two numerators are equal by distributivity of the product over finite sums. That law holds on the reals, not
  at the infinities of the extended reals, so the precondition (every input entry finite, hence a real number) is
  used: `Spec.lean` has the law, `Finite.lean` reads the precondition, `RefSide.lean` reads the reference's run
  entry by entry, `KernelPayload.lean` the kernel body's stored block, `KernelValue.lean` the kernel's result array
  from its 16 blocks. The idealized kernel is the kernel's own text read on the extended reals (no rewrite), so
  the preservation claim is trivial.
-/
import proofs.«128669_g43241730737058_cont_9to1c4_547_7_alg».proof.Defs
import proofs.«128669_g43241730737058_cont_9to1c4_547_7_alg».proof.Proof.Gen.Kernel
import proofs.«128669_g43241730737058_cont_9to1c4_547_7_alg».proof.Proof.Gen.Kernel.Skeleton
import proofs.«128669_g43241730737058_cont_9to1c4_547_7_alg».proof.Proof.Gen.Kernel.Launch
import proofs.«128669_g43241730737058_cont_9to1c4_547_7_alg».proof.Proof.Gen.Kernel.Points
import proofs.«128669_g43241730737058_cont_9to1c4_547_7_alg».proof.Proof.Gen.Kernel.Frame
import proofs.«128669_g43241730737058_cont_9to1c4_547_7_alg».proof.Proof.Gen.KernelIdeal
import proofs.«128669_g43241730737058_cont_9to1c4_547_7_alg».proof.Proof.Gen.KernelIdeal.Skeleton
import proofs.«128669_g43241730737058_cont_9to1c4_547_7_alg».proof.Proof.Gen.KernelIdeal.Launch
import proofs.«128669_g43241730737058_cont_9to1c4_547_7_alg».proof.Proof.Gen.KernelIdeal.Points
import proofs.«128669_g43241730737058_cont_9to1c4_547_7_alg».proof.Proof.Gen.KernelIdeal.Frame
import proofs.«128669_g43241730737058_cont_9to1c4_547_7_alg».proof.Proof.Gen.ReferenceIdeal
import proofs.«128669_g43241730737058_cont_9to1c4_547_7_alg».proof.Proof.Gen.KernelIdeal.Value
import proofs.«128669_g43241730737058_cont_9to1c4_547_7_alg».proof.Proof.Gen.ReferenceIdeal.Run
import proofs.«128669_g43241730737058_cont_9to1c4_547_7_alg».proof.Proof.Gen.ReferenceIdeal.Read
import proofs.«128669_g43241730737058_cont_9to1c4_547_7_alg».proof.Proof.Gen.Pre_finite_inputs
import proofs.«128669_g43241730737058_cont_9to1c4_547_7_alg».proof.Proof.KernelValue
import proofs.«128669_g43241730737058_cont_9to1c4_547_7_alg».proof.Proof.RefSide
import proofs.«128669_g43241730737058_cont_9to1c4_547_7_alg».proof.Proof.Finite
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- For real data the kernel's layer, the bias read through its reshape to one row, is the reference's layer: entry
    by entry the aggregate-then-project form equals the project-then-aggregate form. -/
theorem kernelLayer_eq_layer (x : FVec Ideal Cert.KernelIdeal.S8192x128 .f32) (adj : FVec Ideal Cert.KernelIdeal.S8192x8192 .f32)
    (W : FVec Ideal Cert.KernelIdeal.S128x128 .f32) (b : FVec Ideal Cert.KernelIdeal.S128 .f32)
    (h : Cert.KernelIdeal.S128.ShapeCasts Cert.KernelIdeal.S1x128)
    (hx : ∀ i, ∃ r : ℝ, x i = r) (hadj : ∀ i, ∃ r : ℝ, adj i = r) (hW : ∀ i, ∃ r : ℝ, W i = r)
    (hb : ∀ i, ∃ r : ℝ, b i = r) :
    Cert.Sage.KernelValue.kernelLayer x adj W (shapeCast Cert.KernelIdeal.S1x128 b h) = Cert.Sage.layer x adj W b := by
  funext i
  obtain ⟨r, c, rfl⟩ : ∃ (r : Fin 8192) (c : Fin 128), i = ix2 r c := ⟨i 0, i 1, eq_ix2 i⟩
  show Cert.Sage.aggregateThenProject (fun j : Fin 8192 => adj (ix2 r j)) (fun (j : Fin 8192) (k : Fin 128) => x (ix2 j k))
      (fun k : Fin 128 => W (ix2 c k)) (shapeCast Cert.KernelIdeal.S1x128 b h (ix2 (0 : Fin 1) c))
    = Cert.Sage.projectThenAggregate (fun j : Fin 8192 => adj (ix2 r j)) (fun (j : Fin 8192) (k : Fin 128) => x (ix2 j k))
      (fun k : Fin 128 => W (ix2 c k)) (b (ix1 c))
  rw [shapeCast_a_1a_apply]
  exact Cert.Sage.aggregateThenProject_eq _ _ _ _ (fun j => hadj _) (fun j k => hx _) (fun k => hW _) (hb _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the layer of the (agreeing, finite) arguments in their result arrays. -/
theorem algebraic : Cert.algebraic_KernelIdeal_ReferenceIdeal := by
  intro m ρ m' ρ' hpre hagree
  refine ⟨fun c => Cert.Sage.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks m ρ)
    obtain ⟨hx, hadj, hW, hb⟩ := Cert.Sage.Finite.entries_real _ _ _ _ (hpre c)
    rw [Cert.Sage.KernelValue.final, Cert.KernelIdeal.Gen.V_main_arg0, Cert.KernelIdeal.Gen.V_main_arg1,
      Cert.KernelIdeal.Gen.V_main_arg2, Cert.Sage.KernelValue.bias_row]
    exact kernelLayer_eq_layer _ _ _ _ _ hx hadj hW hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.Sage.Ref.result_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
